-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S1x128 : Shape := ⟨2, ![1, 128]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 64
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S50000x128, .f32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S850000, .i32⟩
  | .hbm, ⟨18, _⟩ => ⟨S1x800000, .i32⟩
  | .hbm, ⟨19, _⟩ => ⟨S800000, .i32⟩
  | .hbm, ⟨20, _⟩ => ⟨S850000, .i32⟩
  | .hbm, ⟨21, _⟩ => ⟨S_, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128 : Shape := ⟨1, ![128]⟩
abbrev S128x128 : Shape := ⟨2, ![128, 128]⟩
abbrev S1x128 : Shape := ⟨2, ![1, 128]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000, .i32⟩
  | .hbm, ⟨25, _⟩ => ⟨S1x800000, .i32⟩
  | .hbm, ⟨26, _⟩ => ⟨S800000, .i32⟩
  | .hbm, ⟨27, _⟩ => ⟨S850000, .i32⟩
  | .hbm, ⟨28, _⟩ => ⟨S1x800000, .i32⟩
  | .hbm, ⟨29, _⟩ => ⟨S800000, .i32⟩
  | .hbm, ⟨30, _⟩ => ⟨S850000, .i32⟩
  | .hbm, ⟨31, _⟩ => ⟨S_, .f32⟩
  | .hbm, ⟨32, _⟩ => ⟨S850000, .f32⟩
  | .hbm, ⟨33, _⟩ => ⟨S_, .f32⟩
  | .hbm, ⟨34, _⟩ => ⟨S50000, .f32⟩
  | .hbm, ⟨35, _⟩ => ⟨S850000x1, .i32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000, .f32⟩
  | .hbm, ⟨56, _⟩ => ⟨S850000, .f32⟩
  | .hbm, ⟨57, _⟩ => ⟨S50000x128, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S850000x1, .f32⟩
  | .hbm, ⟨68, _⟩ => ⟨S850000x128, .f32⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its result array named.

  The program is four segments in a row: five host reshapes, the first pipelined kernel (the normalized rows times the
  weight matrix), the host's degree / gather / scatter chain, and the second pipelined kernel (bias, rectification and
  the residual).  The contents of every unscoped buffer at each segment boundary are a fold through those segments; at
  the end the result buffer holds what the second kernel's write-backs leave in its output array.  The run is stated
  once, with that array and the eight argument arrays in its postcondition.
-/
import proofs.«139842_j66752381714632_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the last
    segment boundary's contents and the argument arrays end as launched. -/
theorem run_boundary : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The same run with the result read as the second kernel's output array after its last write-back. -/
theorem run_arrays : θ_run defs (onTc (τ := τ) (main (F := F))) ⟨m, fun _ => 0, ρ⟩ (fun r => ∀ c : Dev nD,
      r.2.mem ((c.tc : Thread nD τ).loc main_v46) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_arr m ρ c 3), (h c).2⟩) (run_boundary m ρ)

end Cert.KernelIdeal.Hand

end
-- ==== Proof.Spec.lean ====
/-
  What the two programs compute, entry by entry, over the extended reals.

  A node feature matrix `x` (one row per node, 128 columns) is normalized column by column with fixed statistics,
  `h[p, k] = (x[p, k] - mean[k]) * (var[k] + ε)^(-1/2) * gamma[k] + beta[k]`, and multiplied by a 128 × 128 weight
  matrix: `proj[p, q] = Σ_k h[p, k] * W[k, q]`.  After the neighbourhood aggregation `agg` of those rows the layer
  adds the bias, rectifies and adds the input back: `out[p, q] = x[p, q] + max (agg[p, q] + b[q]) 0`.

  Both are written for any number of rows `n`, so that a block of rows and the whole matrix are read by the same
  formula: every entry depends on its own row only.  `ε` and `0` are kept as the binary words both programs print.
-/
import Idealize.ShloMosaic.PureOps.Ideal
import Idealize.ShloMosaic.Lib.ValueIdx

noncomputable section

open scoped BigOperators

namespace Cert.Spec

open Idealize.ShloMosaic Idealize.ShloMosaic.ValueIdx

/-- Entry `(p, k)` of the normalized rows. -/
def normAt {n : Nat} (x : (⟨2, ![n, 128]⟩ : Shape).Idx → EReal) (g b mu var : (⟨1, ![128]⟩ : Shape).Idx → EReal)
    (p : Fin n) (k : Fin 128) : EReal :=
  (x (ix2 p k) - mu (ix1 k)) * Ideal.rsqrt (var (ix1 k) + Ideal.ofBits .f32 0x3727C5AC#32) * g (ix1 k) + b (ix1 k)

/-- Entry `(p, q)` of the normalized rows times the weight matrix. -/
def projAt {n : Nat} (x : (⟨2, ![n, 128]⟩ : Shape).Idx → EReal) (g b mu var : (⟨1, ![128]⟩ : Shape).Idx → EReal)
    (W : (⟨2, ![128, 128]⟩ : Shape).Idx → EReal) (p : Fin n) (q : Fin 128) : EReal :=
  ∑ k : Fin 128, normAt x g b mu var p k * W (ix2 k q)

/-- The projected node features as one array. -/
def proj (x : (⟨2, ![50000, 128]⟩ : Shape).Idx → EReal) (g b mu var : (⟨1, ![128]⟩ : Shape).Idx → EReal)
    (W : (⟨2, ![128, 128]⟩ : Shape).Idx → EReal) : (⟨2, ![50000, 128]⟩ : Shape).Idx → EReal :=
  fun i => projAt x g b mu var W ⟨(i 0).val, (i 0).isLt⟩ ⟨(i 1).val, (i 1).isLt⟩

theorem proj_apply (x : (⟨2, ![50000, 128]⟩ : Shape).Idx → EReal) (g b mu var : (⟨1, ![128]⟩ : Shape).Idx → EReal)
    (W : (⟨2, ![128, 128]⟩ : Shape).Idx → EReal) (p : Fin 50000) (q : Fin 128) :
    proj x g b mu var W (ix2 p q) = projAt x g b mu var W p q := rfl

/-- Entry `(p, q)` of the layer's output from the aggregated rows. -/
def residAt {n : Nat} (x agg : (⟨2, ![n, 128]⟩ : Shape).Idx → EReal) (b : (⟨1, ![128]⟩ : Shape).Idx → EReal)
    (p : Fin n) (q : Fin 128) : EReal :=
  x (ix2 p q) + max (agg (ix2 p q) + b (ix1 q)) (Ideal.ofBits .f32 0x00000000#32)

/-- The layer's output as one array. -/
def resid (x agg : (⟨2, ![50000, 128]⟩ : Shape).Idx → EReal) (b : (⟨1, ![128]⟩ : Shape).Idx → EReal) :
    (⟨2, ![50000, 128]⟩ : Shape).Idx → EReal :=
  fun i => residAt x agg b ⟨(i 0).val, (i 0).isLt⟩ ⟨(i 1).val, (i 1).isLt⟩

theorem resid_apply (x agg : (⟨2, ![50000, 128]⟩ : Shape).Idx → EReal) (b : (⟨1, ![128]⟩ : Shape).Idx → EReal)
    (p : Fin 50000) (q : Fin 128) : resid x agg b (ix2 p q) = residAt x agg b p q := rfl

end Cert.Spec

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Payload.lean ====
/-
  The two kernel bodies read at an entry of their block.

  The first body loads a block of 5000 rows of `x`, the four statistic rows (each a 1 × 128 array) and the weight
  matrix, normalizes the block, and multiplies it by the weights into a zero accumulator: entry `(p, q)` of what it
  stores is `Σ_k h[p, k] * W[k, q]` with `h` the normalized block (the roundings to a shorter float format on the
  way into the product are the identity on the extended reals).  The second body loads a block of `x`, the same
  block of the aggregated rows and the bias row, and stores `x + max (agg + b) 0`.
-/
import proofs.«139842_j66752381714632_1_alg».proof.Proof.Gen.KernelIdeal.Skeleton
import proofs.«139842_j66752381714632_1_alg».proof.Proof.Spec
import proofs.«139842_j66752381714632_1_alg».proof.Proof.LibMatmulPlain
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The printed dimension numbers of the block product are the plain ones: rows by columns. -/
theorem dims_plain : dot_S5000x128_S128x128_S5000x128_1_0_0_1_n_n = DotDims.plain 5000 128 128 := rfl

/-- Entry `(p, q)` of the first body's stored block, from the blocks it loads. -/
theorem pay0_apply (x0 : Vec Ideal S5000x128 .f32) (x1 x2 x3 x4 : Vec Ideal S1x128 .f32) (x5 : Vec Ideal S128x128 .f32)
    (p : Fin 5000) (q : Fin 128) :
    k0_pay1 (F := Ideal) x0 x1 x2 x3 x4 x5 (ix2 p q)
      = ∑ k : Fin 128, ((x0 (ix2 p k) - x3 (ix2 (0 : Fin 1) k))
          * Ideal.rsqrt (x4 (ix2 (0 : Fin 1) k) + Ideal.ofBits .f32 0x3727C5AC#32) * x1 (ix2 (0 : Fin 1) k)
          + x2 (ix2 (0 : Fin 1) k)) * x5 (ix2 k q) := by
  unfold k0_pay1
  rw [dims_plain]
  refine (Cert.Lib.matmul_plain_zero_apply 5000 128 128 none _ _ p q).trans ?_
  refine Finset.sum_congr rfl fun k _ => ?_
  simp only [truncf_apply, addf_apply, mulf_apply, subf_apply, shapeCast_self, broadcastTo_1b_ab_apply]
  rfl

/-- Entry `(p, q)` of the second body's stored block, from the blocks it loads. -/
theorem pay1_apply (x0 x1 : Vec Ideal S5000x128 .f32) (x2 : Vec Ideal S1x128 .f32) (p : Fin 5000) (q : Fin 128) :
    k1_pay1 (F := Ideal) x0 x1 x2 (ix2 p q)
      = x0 (ix2 p q) + max (x1 (ix2 p q) + x2 (ix2 (0 : Fin 1) q)) (Ideal.ofBits .f32 0x00000000#32) := by
  unfold k1_pay1
  simp only [addf_apply, maximumf_apply, shapeCast_self, broadcastTo_1b_ab_apply]
  rfl

end Cert.KernelIdeal.Hand

end
-- ==== Proof.RegionValue.lean ====
/-
  What each pipelined kernel leaves in its output array, as one function of the arrays it is entered with.

  Both kernels walk the 50000 rows in ten blocks of 5000: at point `t` the row-block windows sit at rows
  `5000 t … 5000 t + 4999` and the small operands (the statistic rows, the bias row, the weight matrix) are whole at
  every point.  Every entry of what a point writes back depends on its own row only, so block `t` of the written
  array is block `t` of one whole-array function; the ten blocks cover the array, hence the array ends holding that
  function.  The arrays at region entry are a parameter `V` here; the run instantiates it.
-/
import proofs.«139842_j66752381714632_1_alg».proof.Proof.Gen.KernelIdeal.Frame
import proofs.«139842_j66752381714632_1_alg».proof.Proof.Payload
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The first kernel: normalized rows times the weights -/

/-- Where each window of the first kernel sits at point `t`: the row-block windows at block `t`, the others at the origin. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of `x` at point `t` is row `5000 t + p` of `x`. -/
theorem rows0 (c : Dev nD) (t : Fin cfg0.N) (p : Fin 5000) (k : Fin 128) (P : Fin 50000) (hP : P.val = t.val * 5000 + p.val) :
    (iblk0 V c 0 t : Vec Ideal S5000x128 .f32) (ix2 p k) = (V c main_arg0 : S50000x128.Idx → EReal) (ix2 P k) := by
  obtain ⟨e0, e1, -⟩ := where0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- The four statistic rows are whole at every point. -/
theorem row0_1 (c : Dev nD) (t : Fin cfg0.N) (k : Fin 128) :
    (iblk0 V c 1 t : Vec Ideal S1x128 .f32) (ix2 (0 : Fin 1) k) = (V c main_v0 : S1x128.Idx → EReal) (ix2 (0 : Fin 1) k) := by
  obtain ⟨-, -, e0, e1, -⟩ := where0 t
  unfold iblk0
  rw [View.read_apply]
  show V c main_v0 _ = V c main_v0 _
  refine congrArg (V c main_v0) ?_
  funext a
  apply Fin.ext
  match a with
  | ⟨0, _⟩ => show win0_1.index t (0 : Fin 2) * 1 + 1 * 0 = 0; rw [e0]
  | ⟨1, _⟩ => show win0_1.index t (1 : Fin 2) * 128 + 1 * k.val = k.val; rw [e1]; omega

theorem row0_2 (c : Dev nD) (t : Fin cfg0.N) (k : Fin 128) :
    (iblk0 V c 2 t : Vec Ideal S1x128 .f32) (ix2 (0 : Fin 1) k) = (V c main_v1 : S1x128.Idx → EReal) (ix2 (0 : Fin 1) k) := by
  obtain ⟨-, -, -, -, e0, e1, -⟩ := where0 t
  unfold iblk0
  rw [View.read_apply]
  show V c main_v1 _ = V c main_v1 _
  refine congrArg (V c main_v1) ?_
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

theorem row0_3 (c : Dev nD) (t : Fin cfg0.N) (k : Fin 128) :
    (iblk0 V c 3 t : Vec Ideal S1x128 .f32) (ix2 (0 : Fin 1) k) = (V c main_v2 : S1x128.Idx → EReal) (ix2 (0 : Fin 1) k) := by
  obtain ⟨-, -, -, -, -, -, e0, e1, -⟩ := where0 t
  unfold iblk0
  rw [View.read_apply]
  show V c main_v2 _ = V c main_v2 _
  refine congrArg (V c main_v2) ?_
  funext a
  apply Fin.ext
  match a with
  | ⟨0, _⟩ => show win0_3.index t (0 : Fin 2) * 1 + 1 * 0 = 0; rw [e0]
  | ⟨1, _⟩ => show win0_3.index t (1 : Fin 2) * 128 + 1 * k.val = k.val; rw [e1]; omega

theorem row0_4 (c : Dev nD) (t : Fin cfg0.N) (k : Fin 128) :
    (iblk0 V c 4 t : Vec Ideal S1x128 .f32) (ix2 (0 : Fin 1) k) = (V c main_v3 : S1x128.Idx → EReal) (ix2 (0 : Fin 1) k) := by
  obtain ⟨-, -, -, -, -, -, -, -, e0, e1, -⟩ := where0 t
  unfold iblk0
  rw [View.read_apply]
  show V c main_v3 _ = V c main_v3 _
  refine congrArg (V c main_v3) ?_
  funext a
  apply Fin.ext
  match a with
  | ⟨0, _⟩ => show win0_4.index t (0 : Fin 2) * 1 + 1 * 0 = 0; rw [e0]
  | ⟨1, _⟩ => show win0_4.index t (1 : Fin 2) * 128 + 1 * k.val = k.val; rw [e1]; omega

/-- The weight matrix is whole at every point. -/
theorem weights0 (c : Dev nD) (t : Fin cfg0.N) (k q : Fin 128) :
    (iblk0 V c 5 t : Vec Ideal S128x128 .f32) (ix2 k q) = (V c main_arg6 : S128x128.Idx → EReal) (ix2 k q) := by
  obtain ⟨-, -, -, -, -, -, -, -, -, -, e0, e1, -⟩ := where0 t
  unfold iblk0
  rw [View.read_apply]
  show V c main_arg6 _ = V c main_arg6 _
  refine congrArg (V c main_arg6) ?_
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- What point `t` of the first kernel writes back is block `t` of the projected features, when the four statistic
    rows the region is entered with are the rows `g`, `b`, `mu`, `var`. -/
theorem flushed0_eq (c : Dev nD) (g b mu var : (⟨1, ![128]⟩ : Shape).Idx → EReal)
    (hg : ∀ k : Fin 128, (V c main_v0 : S1x128.Idx → EReal) (ix2 (0 : Fin 1) k) = g (ix1 k))
    (hb : ∀ k : Fin 128, (V c main_v1 : S1x128.Idx → EReal) (ix2 (0 : Fin 1) k) = b (ix1 k))
    (hmu : ∀ k : Fin 128, (V c main_v2 : S1x128.Idx → EReal) (ix2 (0 : Fin 1) k) = mu (ix1 k))
    (hvar : ∀ k : Fin 128, (V c main_v3 : S1x128.Idx → EReal) (ix2 (0 : Fin 1) k) = var (ix1 k))
    (t : Fin cfg0.N) :
    (dat0 V c).flushed 6 t = ((cfg0.win 6).blk t).view.read (Elt Ideal)
      (Cert.Spec.proj (V c main_arg0) g b mu var (V c main_arg6)) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S1x128) zero_offsets,
    View.ld_unit_zero (S := S128x128) zero_offsets]
  have hN : grid0.N = 10 := N_0
  have ht : t.val < 10 := hN ▸ t.isLt
  obtain ⟨-, -, -, -, -, -, -, -, -, -, -, -, e0, e1⟩ := where0 t
  funext j
  obtain ⟨p, q, rfl⟩ : ∃ (p : Fin 5000) (q : Fin 128), j = ix2 p q := ⟨j 0, j 1, eq_ix2 j⟩
  have hemb : ((cfg0.win 6).blk t).view.emb (ix2 p q) = ix2 (⟨t.val * 5000 + p.val, by omega⟩ : Fin 50000) q := by
    funext a
    apply Fin.ext
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  show k0_pay1 (F := Ideal) (iblk0 V c 0 t) (iblk0 V c 1 t) (iblk0 V c 2 t) (iblk0 V c 3 t) (iblk0 V c 4 t) (iblk0 V c 5 t) (ix2 p q)
    = Cert.Spec.proj (V c main_arg0) g b mu var (V c main_arg6) (((cfg0.win 6).blk t).view.emb (ix2 p q))
  rw [hemb, Cert.Spec.proj_apply]
  refine (pay0_apply (iblk0 V c 0 t) (iblk0 V c 1 t) (iblk0 V c 2 t) (iblk0 V c 3 t) (iblk0 V c 4 t) (iblk0 V c 5 t) p q).trans ?_
  unfold Cert.Spec.projAt Cert.Spec.normAt
  refine Finset.sum_congr rfl fun k _ => ?_
  rw [rows0 V c t p k ⟨t.val * 5000 + p.val, by omega⟩ rfl, row0_1 V c t k, row0_2 V c t k, row0_3 V c t k, row0_4 V c t k,
    weights0 V c t k q, hg k, hb k, hmu k, hvar k]

/-- An index of the output array is in point `t`'s block iff each coordinate is in the block's range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v5).slice (win0_6.rect t)).set ↔ _
  rw [View.set_slice_whole, Rect.mem_set_unit]
  exact Iff.rfl

/-- Every row lies in the block of the point `row / 5000`. -/
theorem cover0 (i : S50000x128.Idx) : ∃ t : Fin cfg0.N, (cfg0.win 6).flush t = true ∧ i ∈ ((cfg0.win 6).blk t).view.set := by
  have hN : grid0.N = 10 := N_0
  have h0 : (i 0).val < 50000 := (i 0).isLt
  have h1 : (i 1).val < 128 := (i 1).isLt
  let t : Fin cfg0.N := ⟨(i 0).val / 5000, by show (i 0).val / 5000 < grid0.N; rw [hN]; omega⟩
  have htv : t.val = (i 0).val / 5000 := rfl
  obtain ⟨-, -, -, -, -, -, -, -, -, -, -, -, e0, e1⟩ := where0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; rw [e0, htv]; omega
  | ⟨1, _⟩ => show win0_6.index t (1 : Fin 2) * 128 ≤ (i 1).val ∧ (i 1).val < win0_6.index t (1 : Fin 2) * 128 + 128; rw [e1]; omega

/-- The first kernel's output array ends holding the projected features. -/
theorem final0 (c : Dev nD) (g b mu var : (⟨1, ![128]⟩ : Shape).Idx → EReal)
    (hg : ∀ k : Fin 128, (V c main_v0 : S1x128.Idx → EReal) (ix2 (0 : Fin 1) k) = g (ix1 k))
    (hb : ∀ k : Fin 128, (V c main_v1 : S1x128.Idx → EReal) (ix2 (0 : Fin 1) k) = b (ix1 k))
    (hmu : ∀ k : Fin 128, (V c main_v2 : S1x128.Idx → EReal) (ix2 (0 : Fin 1) k) = mu (ix1 k))
    (hvar : ∀ k : Fin 128, (V c main_v3 : S1x128.Idx → EReal) (ix2 (0 : Fin 1) k) = var (ix1 k)) :
    (dat0 V c).arrAt 6 cfg0.N = Cert.Spec.proj (V c main_arg0) g b mu var (V c main_arg6) :=
  (dat0 V c).arrAt_eq_of_cover 6 (Cert.Spec.proj (V c main_arg0) g b mu var (V c main_arg6))
    (fun t _ => flushed0_eq V c g b mu var hg hb hmu hvar t) cover0

/-! ## The second kernel: bias, rectification, residual -/

/-- Where each window of the second kernel sits at point `t`. -/
theorem where1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rows1_0 (c : Dev nD) (t : Fin cfg1.N) (p : Fin 5000) (k : Fin 128) (P : Fin 50000) (hP : P.val = t.val * 5000 + p.val) :
    (iblk1 V c 0 t : Vec Ideal S5000x128 .f32) (ix2 p k) = (V c main_arg0 : S50000x128.Idx → EReal) (ix2 P k) := by
  obtain ⟨e0, e1, -⟩ := where1 t
  unfold iblk1
  rw [View.read_apply]
  show V c main_arg0 _ = V c main_arg0 _
  refine congrArg (V c main_arg0) ?_
  funext a
  apply Fin.ext
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

theorem rows1_1 (c : Dev nD) (t : Fin cfg1.N) (p : Fin 5000) (k : Fin 128) (P : Fin 50000) (hP : P.val = t.val * 5000 + p.val) :
    (iblk1 V c 1 t : Vec Ideal S5000x128 .f32) (ix2 p k) = (V c main_v45 : S50000x128.Idx → EReal) (ix2 P k) := by
  obtain ⟨-, -, e0, e1, -⟩ := where1 t
  unfold iblk1
  rw [View.read_apply]
  show V c main_v45 _ = V c main_v45 _
  refine congrArg (V c main_v45) ?_
  funext a
  apply Fin.ext
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega

theorem row1_2 (c : Dev nD) (t : Fin cfg1.N) (k : Fin 128) :
    (iblk1 V c 2 t : Vec Ideal S1x128 .f32) (ix2 (0 : Fin 1) k) = (V c main_v4 : S1x128.Idx → EReal) (ix2 (0 : Fin 1) k) := by
  obtain ⟨-, -, -, -, e0, e1, -⟩ := where1 t
  unfold iblk1
  rw [View.read_apply]
  show V c main_v4 _ = V c main_v4 _
  refine congrArg (V c main_v4) ?_
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- What point `t` of the second kernel writes back is block `t` of the layer's output, when the bias row the
    region is entered with is the row `bias`. -/
theorem flushed1_eq (c : Dev nD) (bias : (⟨1, ![128]⟩ : Shape).Idx → EReal)
    (hbias : ∀ k : Fin 128, (V c main_v4 : S1x128.Idx → EReal) (ix2 (0 : Fin 1) k) = bias (ix1 k))
    (t : Fin cfg1.N) :
    (dat1 V c).flushed 3 t = ((cfg1.win 3).blk t).view.read (Elt Ideal)
      (Cert.Spec.resid (V c main_arg0) (V c main_v45) bias) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  have hN : grid1.N = 10 := N_1
  have ht : t.val < 10 := hN ▸ t.isLt
  obtain ⟨-, -, -, -, -, -, e0, e1⟩ := where1 t
  funext j
  obtain ⟨p, q, rfl⟩ : ∃ (p : Fin 5000) (q : Fin 128), j = ix2 p q := ⟨j 0, j 1, eq_ix2 j⟩
  have hemb : ((cfg1.win 3).blk t).view.emb (ix2 p q) = ix2 (⟨t.val * 5000 + p.val, by omega⟩ : Fin 50000) q := by
    funext a
    apply Fin.ext
    match a with
    | ⟨0, _⟩ => show win1_3.index t (0 : Fin 2) * 5000 + 1 * p.val = t.val * 5000 + p.val; rw [e0]; omega
    | ⟨1, _⟩ => show win1_3.index t (1 : Fin 2) * 128 + 1 * q.val = q.val; rw [e1]; omega
  show k1_pay1 (F := Ideal) (iblk1 V c 0 t) (iblk1 V c 1 t) (iblk1 V c 2 t) (ix2 p q)
    = Cert.Spec.resid (V c main_arg0) (V c main_v45) bias (((cfg1.win 3).blk t).view.emb (ix2 p q))
  rw [hemb, Cert.Spec.resid_apply]
  refine (pay1_apply (iblk1 V c 0 t) (iblk1 V c 1 t) (iblk1 V c 2 t) p q).trans ?_
  unfold Cert.Spec.residAt
  rw [rows1_0 V c t p q ⟨t.val * 5000 + p.val, by omega⟩ rfl, rows1_1 V c t p q ⟨t.val * 5000 + p.val, by omega⟩ rfl,
    row1_2 V c t q, hbias q]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

theorem cover1 (i : S50000x128.Idx) : ∃ t : Fin cfg1.N, (cfg1.win 3).flush t = true ∧ i ∈ ((cfg1.win 3).blk t).view.set := by
  have hN : grid1.N = 10 := N_1
  have h0 : (i 0).val < 50000 := (i 0).isLt
  have h1 : (i 1).val < 128 := (i 1).isLt
  let t : Fin cfg1.N := ⟨(i 0).val / 5000, by show (i 0).val / 5000 < grid1.N; rw [hN]; omega⟩
  have htv : t.val = (i 0).val / 5000 := rfl
  obtain ⟨-, -, -, -, -, -, e0, e1⟩ := where1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0, htv]; omega
  | ⟨1, _⟩ => show win1_3.index t (1 : Fin 2) * 128 ≤ (i 1).val ∧ (i 1).val < win1_3.index t (1 : Fin 2) * 128 + 128; rw [e1]; omega

/-- The second kernel's output array ends holding the layer's output. -/
theorem final1 (c : Dev nD) (bias : (⟨1, ![128]⟩ : Shape).Idx → EReal)
    (hbias : ∀ k : Fin 128, (V c main_v4 : S1x128.Idx → EReal) (ix2 (0 : Fin 1) k) = bias (ix1 k)) :
    (dat1 V c).arrAt 3 cfg1.N = Cert.Spec.resid (V c main_arg0) (V c main_v45) bias :=
  (dat1 V c).arrAt_eq_of_cover 3 (Cert.Spec.resid (V c main_arg0) (V c main_v45) bias)
    (fun t _ => flushed1_eq V c bias hbias t) cover1

end Cert.KernelIdeal.Hand

end
-- ==== Proof.RefValue.lean ====
/-
  The reference program read as the layer's formula.

  The reference computes the normalized rows, multiplies them by the weights with one host product over all 50000
  rows, aggregates the product's rows over the graph's edges (each node also its own neighbour), adds the bias,
  rectifies and adds the input back.  The aggregation — the degree count by a scatter-add of ones over the edge
  targets, its inverse square root gathered at both ends of every edge, the product's rows gathered at the edge
  sources and scaled, and their scatter-add over the edge targets — is one function `aggOf` of the product and of
  the edge list; it is never opened: the kernel program applies the same operations to its own product.
-/
import proofs.«139842_j66752381714632_1_alg».proof.Proof.Gen.ReferenceIdeal.Read
import proofs.«139842_j66752381714632_1_alg».proof.Proof.Spec

noncomputable section

open scoped BigOperators

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

/-- The neighbourhood aggregation of the rows of `M` over the edge list `e` (row 0 the sources, row 1 the targets),
    every node joined to itself, each edge weighted by the inverse square roots of its two ends' degrees. -/
def aggOf (M : FVec Ideal S50000x128 .f32) (e : IVec S2x800000 32) : FVec Ideal S50000x128 .f32 :=
  Host.scatterAdd (F := Ideal) scatter_S50000x128_S850000x1_S850000x128_1_0_0_1 (val_main_v53 (F := Ideal)) (val_main_v54 (F := Ideal) e)
    (mulf (F := Ideal) (Host.gather gather_S50000x128_S850000x1_S850000x128_1_0_n_n_0_1_1128 M (val_main_v48 (F := Ideal) e))
      (val_main_v51 (F := Ideal) e))

/-- The reference's aggregated rows are `aggOf` of its product. -/
theorem agg_ref (x0 : FVec Ideal S50000x128 .f32) (x1 : IVec S2x800000 32) (x2 x3 x4 x5 : FVec Ideal S128 .f32)
    (x6 : FVec Ideal S128x128 .f32) :
    val_main_v55 (F := Ideal) x0 x1 x2 x3 x4 x5 x6 = aggOf (val_main_v42 (F := Ideal) x0 x2 x3 x4 x5 x6) x1 := rfl

/-- The reference's host product is the projected features, entry by entry. -/
theorem proj_ref (x0 : FVec Ideal S50000x128 .f32) (x2 x3 x4 x5 : FVec Ideal S128 .f32) (x6 : FVec Ideal S128x128 .f32) :
    val_main_v42 (F := Ideal) x0 x2 x3 x4 x5 x6 = Cert.Spec.proj x0 x2 x3 x4 x5 x6 := by
  funext i
  obtain ⟨p, q, rfl⟩ : ∃ (p : Fin 50000) (q : Fin 128), i = ix2 p q := ⟨i 0, i 1, eq_ix2 i⟩
  rw [val_main_v42_apply, Cert.Spec.proj_apply]
  unfold Cert.Spec.projAt Cert.Spec.normAt
  refine Finset.sum_congr rfl fun k _ => ?_
  have hl : lidx_main_v42 (ix2 p q) k = ix2 p k := funext fun a => Fin.ext (by match a with | ⟨0, _⟩ => rfl | ⟨1, _⟩ => rfl)
  have hr : ridx_main_v42 (ix2 p q) k = ix2 k q := funext fun a => Fin.ext (by match a with | ⟨0, _⟩ => rfl | ⟨1, _⟩ => rfl)
  have h4 : idx_main_v0 (idx_main_v1 (ix2 p k)) = ix1 k := funext fun a => Fin.ext (by match a with | ⟨0, _⟩ => rfl)
  have h5 : idx_main_v6 (idx_main_v7 (ix2 p k)) = ix1 k := funext fun a => Fin.ext (by match a with | ⟨0, _⟩ => rfl)
  have h2 : idx_main_v9 (idx_main_v10 (ix2 p k)) = ix1 k := funext fun a => Fin.ext (by match a with | ⟨0, _⟩ => rfl)
  have h3 : idx_main_v12 (idx_main_v13 (ix2 p k)) = ix1 k := funext fun a => Fin.ext (by match a with | ⟨0, _⟩ => rfl)
  rw [hl, hr, val_main_v14_apply, val_main_v11_apply, val_main_v13_apply, val_main_v12_apply, val_main_v8_apply,
    val_main_v10_apply, val_main_v9_apply, val_main_v2_apply, val_main_v1_apply, val_main_v0_apply, val_main_v7_apply,
    val_main_v6_apply, val_main_v5_apply, val_main_v4_apply, val_main_v3_apply, val_main_cst_apply, h4, h5, h2, h3]
  rfl

/-- The reference's result is the layer's output from its aggregated rows. -/
theorem resid_ref (x0 : FVec Ideal S50000x128 .f32) (x1 : IVec S2x800000 32) (x2 x3 x4 x5 : FVec Ideal S128 .f32)
    (x6 : FVec Ideal S128x128 .f32) (x7 : FVec Ideal S128 .f32) :
    val_main_v61 (F := Ideal) x0 x1 x2 x3 x4 x5 x6 x7
      = Cert.Spec.resid x0 (val_main_v55 (F := Ideal) x0 x1 x2 x3 x4 x5 x6) x7 := by
  funext i
  obtain ⟨p, q, rfl⟩ : ∃ (p : Fin 50000) (q : Fin 128), i = ix2 p q := ⟨i 0, i 1, eq_ix2 i⟩
  have h7 : idx_main_v56 (idx_main_v57 (ix2 p q)) = ix1 q := funext fun a => Fin.ext (by match a with | ⟨0, _⟩ => rfl)
  rw [Cert.Spec.resid_apply, val_main_v61_apply, val_main_v60_apply, val_main_v58_apply, val_main_v59_apply,
    val_main_cst_8_apply, val_main_v57_apply, val_main_v56_apply, h7]
  rfl

/-- The reference's result array, from the argument arrays. -/
theorem result_ref (m : (ℓ : Loc nD τ sig) → Buf (Elt Ideal) ℓ) (c : Dev nD) :
    Cert.ReferenceIdeal.Value.res_main_v61 m c
      = Cert.Spec.resid (m ((c.tc : Thread nD τ).loc main_arg0))
          (aggOf (Cert.Spec.proj (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6)))
            (m ((c.tc : Thread nD τ).loc main_arg1)))
          (m ((c.tc : Thread nD τ).loc main_arg7)) := by
  rw [val_main_v61_eq, resid_ref, agg_ref, proj_ref]

end Cert.ReferenceIdeal.Hand

end
-- ==== Proof.KernelHost.lean ====
/-
  The kernel program's host side: what its two kernels are entered with, and what lies between them.

  Before the first kernel the host only reshapes the five parameter vectors into 1 × 128 rows.  Between the kernels it
  applies to the first kernel's product the neighbourhood aggregation, operation by operation the one the reference
  applies to its own product; it is carried as the one function `aggOf` of the product and of the edge list and is not
  opened.  So the second kernel is entered with `x`, the aggregated rows of the first kernel's output, and the bias row,
  and the result array ends holding the layer's formula of the argument arrays.
-/
import proofs.«139842_j66752381714632_1_alg».proof.Proof.Gen.KernelIdeal.Frame
import proofs.«139842_j66752381714632_1_alg».proof.Proof.RegionValue
import proofs.«139842_j66752381714632_1_alg».proof.Proof.RefValue
import Idealize.ShloMosaic.Lib.ValueLayout
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## Entering the first kernel -/

theorem enter0_x (c : Dev nD) : V1 m ρ c main_arg0 = (m ((c : Thread nD τ).loc main_arg0)) := by
  show StableHlo.after hostOps0 (W0 m ρ c) (Proc.devRef .tc main_arg0) = _
  after_results

theorem enter0_w (c : Dev nD) : V1 m ρ c main_arg6 = (m ((c : Thread nD τ).loc main_arg6)) := by
  show StableHlo.after hostOps0 (W0 m ρ c) (Proc.devRef .tc main_arg6) = _
  after_results

theorem enter0_e (c : Dev nD) : W1 m ρ c (Proc.devRef .tc main_arg1) = (m ((c : Thread nD τ).loc main_arg1)) := by
  show StableHlo.after hostOps0 (W0 m ρ c) (Proc.devRef .tc main_arg1) = _
  after_results

/-- The scale row the first kernel is entered with is the scale vector, read along the row. -/
theorem enter0_g (c : Dev nD) (k : Fin 128) :
    (V1 m ρ c main_v0 : S1x128.Idx → EReal) (ix2 (0 : Fin 1) k) = ((m ((c : Thread nD τ).loc main_arg2)) : S128.Idx → EReal) (ix1 k) := by
  have e : (V1 m ρ c main_v0 : S1x128.Idx → EReal) = shapeCast S1x128 ((m ((c : Thread nD τ).loc main_arg2)) : S128.Idx → EReal) shapeCasts_S128_S1x128 := by
    show StableHlo.after hostOps0 (W0 m ρ c) (Proc.devRef .tc main_v0) = _
    after_results
    rfl
  rw [e]
  exact shapeCast_a_1a_apply _ _ 0 k

theorem enter0_b (c : Dev nD) (k : Fin 128) :
    (V1 m ρ c main_v1 : S1x128.Idx → EReal) (ix2 (0 : Fin 1) k) = ((m ((c : Thread nD τ).loc main_arg3)) : S128.Idx → EReal) (ix1 k) := by
  have e : (V1 m ρ c main_v1 : S1x128.Idx → EReal) = shapeCast S1x128 ((m ((c : Thread nD τ).loc main_arg3)) : S128.Idx → EReal) shapeCasts_S128_S1x128 := by
    show StableHlo.after hostOps0 (W0 m ρ c) (Proc.devRef .tc main_v1) = _
    after_results
    rfl
  rw [e]
  exact shapeCast_a_1a_apply _ _ 0 k

theorem enter0_mu (c : Dev nD) (k : Fin 128) :
    (V1 m ρ c main_v2 : S1x128.Idx → EReal) (ix2 (0 : Fin 1) k) = ((m ((c : Thread nD τ).loc main_arg4)) : S128.Idx → EReal) (ix1 k) := by
  have e : (V1 m ρ c main_v2 : S1x128.Idx → EReal) = shapeCast S1x128 ((m ((c : Thread nD τ).loc main_arg4)) : S128.Idx → EReal) shapeCasts_S128_S1x128 := by
    show StableHlo.after hostOps0 (W0 m ρ c) (Proc.devRef .tc main_v2) = _
    after_results
    rfl
  rw [e]
  exact shapeCast_a_1a_apply _ _ 0 k

theorem enter0_var (c : Dev nD) (k : Fin 128) :
    (V1 m ρ c main_v3 : S1x128.Idx → EReal) (ix2 (0 : Fin 1) k) = ((m ((c : Thread nD τ).loc main_arg5)) : S128.Idx → EReal) (ix1 k) := by
  have e : (V1 m ρ c main_v3 : S1x128.Idx → EReal) = shapeCast S1x128 ((m ((c : Thread nD τ).loc main_arg5)) : S128.Idx → EReal) shapeCasts_S128_S1x128 := by
    show StableHlo.after hostOps0 (W0 m ρ c) (Proc.devRef .tc main_v3) = _
    after_results
    rfl
  rw [e]
  exact shapeCast_a_1a_apply _ _ 0 k

/-- The first kernel's output array after its run: the projected features of the argument arrays. -/
theorem product (c : Dev nD) :
    (dat0 (V1 m ρ) c).arrAt 6 cfg0.N = Cert.Spec.proj (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6)) := by
  rw [final0 (V1 m ρ) c (m ((c : Thread nD τ).loc main_arg2)) (m ((c : Thread nD τ).loc main_arg3)) (m ((c : Thread nD τ).loc main_arg4)) (m ((c : Thread nD τ).loc main_arg5))
    (enter0_g m ρ c) (enter0_b m ρ c) (enter0_mu m ρ c) (enter0_var m ρ c), enter0_x, enter0_w]

/-! ## Between the kernels -/

/-- The aggregated rows the second kernel is entered with: `aggOf` of whatever the product buffer and the edge list
    hold when the first kernel is left. -/
theorem between_agg (W : Valuation τ sig (Elt Ideal)) :
    (StableHlo.after hostOps1 W (Proc.devRef .tc main_v45) : S50000x128.Idx → EReal)
      = Cert.ReferenceIdeal.Hand.aggOf (W (Proc.devRef .tc main_v5)) (W (Proc.devRef .tc main_arg1)) := by
  after_results_simp
  simp only [Cert.ReferenceIdeal.Hand.aggOf, Cert.ReferenceIdeal.Read.val_main_v53, Cert.ReferenceIdeal.Read.val_main_cst_7, Cert.ReferenceIdeal.Read.val_main_v54, Cert.ReferenceIdeal.Read.val_main_v21, Cert.ReferenceIdeal.Read.val_main_v20, Cert.ReferenceIdeal.Read.val_main_v19, Cert.ReferenceIdeal.Read.val_main_v15, Cert.ReferenceIdeal.Read.val_main_v48, Cert.ReferenceIdeal.Read.val_main_v47, Cert.ReferenceIdeal.Read.val_main_v44, Cert.ReferenceIdeal.Read.val_main_v43, Cert.ReferenceIdeal.Read.val_main_c_5, Cert.ReferenceIdeal.Read.val_main_v46, Cert.ReferenceIdeal.Read.val_main_v45, Cert.ReferenceIdeal.Read.val_main_c_6, Cert.ReferenceIdeal.Read.val_main_v18, Cert.ReferenceIdeal.Read.val_main_v17, Cert.ReferenceIdeal.Read.val_main_v16, Cert.ReferenceIdeal.Read.val_main_v51, Cert.ReferenceIdeal.Read.val_main_v50, Cert.ReferenceIdeal.Read.val_main_v41, Cert.ReferenceIdeal.Read.val_main_v33, Cert.ReferenceIdeal.Read.val_main_v26, Cert.ReferenceIdeal.Read.val_main_v25, Cert.ReferenceIdeal.Read.val_main_v23, Cert.ReferenceIdeal.Read.val_main_cst_1, Cert.ReferenceIdeal.Read.val_main_v24, Cert.ReferenceIdeal.Read.val_main_v22, Cert.ReferenceIdeal.Read.val_main_cst_0, Cert.ReferenceIdeal.Read.val_main_v32, Cert.ReferenceIdeal.Read.val_main_v31, Cert.ReferenceIdeal.Read.val_main_v28, Cert.ReferenceIdeal.Read.val_main_v27, Cert.ReferenceIdeal.Read.val_main_c, Cert.ReferenceIdeal.Read.val_main_v30, Cert.ReferenceIdeal.Read.val_main_v29, Cert.ReferenceIdeal.Read.val_main_c_2, Cert.ReferenceIdeal.Read.val_main_v40, Cert.ReferenceIdeal.Read.val_main_v39, Cert.ReferenceIdeal.Read.val_main_v38, Cert.ReferenceIdeal.Read.val_main_v35, Cert.ReferenceIdeal.Read.val_main_v34, Cert.ReferenceIdeal.Read.val_main_c_3, Cert.ReferenceIdeal.Read.val_main_v37, Cert.ReferenceIdeal.Read.val_main_v36, Cert.ReferenceIdeal.Read.val_main_c_4]
  rfl

/-- The host chain between the kernels writes neither `x` nor the bias row. -/
theorem between_bias (W : Valuation τ sig (Elt Ideal)) :
    StableHlo.after hostOps1 W (Proc.devRef .tc main_v4) = W (Proc.devRef .tc main_v4) := by
  after_results_simp

/-! ## Entering the second kernel -/

theorem enter1_x (c : Dev nD) : V3 m ρ c main_arg0 = (m ((c : Thread nD τ).loc main_arg0)) :=
  ((W4_arr m ρ c 0).trans (((dat1 (V3 m ρ) c).arrAt_in 0 rfl _).trans (A_eq1 (V3 m ρ) c 0))).symm.trans (W4_main_arg0 m ρ c)

theorem enter1_bias (c : Dev nD) (k : Fin 128) :
    (V3 m ρ c main_v4 : S1x128.Idx → EReal) (ix2 (0 : Fin 1) k) = ((m ((c : Thread nD τ).loc main_arg7)) : S128.Idx → EReal) (ix1 k) := by
  have e : (V3 m ρ c main_v4 : S1x128.Idx → EReal) = shapeCast S1x128 ((m ((c : Thread nD τ).loc main_arg7)) : S128.Idx → EReal) shapeCasts_S128_S1x128 := by
    show StableHlo.after hostOps1 (W2 m ρ c) (Proc.devRef .tc main_v4) = _
    rw [between_bias, W2_of_ne m ρ c main_v4 (by decide)]
    show StableHlo.after hostOps0 (W0 m ρ c) (Proc.devRef .tc main_v4) = _
    after_results
    rfl
  rw [e]
  exact shapeCast_a_1a_apply _ _ 0 k

theorem enter1_agg (c : Dev nD) :
    (V3 m ρ c main_v45 : S50000x128.Idx → EReal)
      = Cert.ReferenceIdeal.Hand.aggOf
          (Cert.Spec.proj (m ((c : Thread nD τ).loc main_arg0)) (m ((c : Thread nD τ).loc main_arg2)) (m ((c : Thread nD τ).loc main_arg3))
            (m ((c : Thread nD τ).loc main_arg4)) (m ((c : Thread nD τ).loc main_arg5)) (m ((c : Thread nD τ).loc main_arg6)))
          (m ((c : Thread nD τ).loc main_arg1)) := by
  show (StableHlo.after hostOps1 (W2 m ρ c) (Proc.devRef .tc main_v45) : S50000x128.Idx → EReal) = _
  rw [between_agg, W2_arr m ρ c 6, product, W2_of_ne m ρ c main_arg1 (by decide), enter0_e]

/-- The result array after the run: the layer's formula of the argument arrays. -/
theorem result (c : Dev nD) :
    (dat1 (V3 m ρ) c).arrAt 3 cfg1.N
      = Cert.Spec.resid (m ((c : Thread nD τ).loc main_arg0))
          (Cert.ReferenceIdeal.Hand.aggOf
            (Cert.Spec.proj (m ((c : Thread nD τ).loc main_arg0)) (m ((c : Thread nD τ).loc main_arg2)) (m ((c : Thread nD τ).loc main_arg3))
              (m ((c : Thread nD τ).loc main_arg4)) (m ((c : Thread nD τ).loc main_arg5)) (m ((c : Thread nD τ).loc main_arg6)))
            (m ((c : Thread nD τ).loc main_arg1)))
          (m ((c : Thread nD τ).loc main_arg7)) := by
  rw [final1 (V3 m ρ) c (m ((c : Thread nD τ).loc main_arg7)) (enter1_bias m ρ c), enter1_x, enter1_agg]

end Cert.KernelIdeal.Hand

end
-- ==== Proof.lean ====
/-
  One graph-convolution layer: batch-normalized node features times a weight matrix, aggregated over the graph's
  edges with symmetric degree weights, plus bias, rectified, added back onto the input.

  The kernel program computes the product in a pipelined kernel over ten blocks of 5000 rows, aggregates on the host,
  and finishes in a second pipelined kernel; the reference does everything on the host.  Over the extended reals the two
  agree entry by entry and no finiteness is needed: a row of the product depends on its own row of the input only, so
  the ten row blocks of the kernel's product are the rows of the reference's one product (a sum over the same 128
  terms, the shorter float format on the way into the kernel's product being the identity here); the aggregation is the
  same chain of host operations on both sides, carried as one function of the product and the edge list; and the last
  step is the same entrywise formula `x + max (agg + b) 0`.

  The three frames are the generated ones (the reference's is its generated run with the result dropped); the
  idealization rewrote nothing, so the kernel program read at the extended reals is its own sanctioned idealization.
-/
import proofs.«139842_j66752381714632_1_alg».proof.Defs
import proofs.«139842_j66752381714632_1_alg».proof.Proof.Gen.Kernel
import proofs.«139842_j66752381714632_1_alg».proof.Proof.Gen.Kernel.Frame
import proofs.«139842_j66752381714632_1_alg».proof.Proof.Gen.KernelIdeal
import proofs.«139842_j66752381714632_1_alg».proof.Proof.Gen.KernelIdeal.Frame
import proofs.«139842_j66752381714632_1_alg».proof.Proof.Gen.ReferenceIdeal
import proofs.«139842_j66752381714632_1_alg».proof.Proof.Gen.ReferenceIdeal.Run
import proofs.«139842_j66752381714632_1_alg».proof.Proof.Gen.ReferenceIdeal.Read
import proofs.«139842_j66752381714632_1_alg».proof.Proof.Gen.Pre_finite_inputs
import proofs.«139842_j66752381714632_1_alg».proof.Proof.KernelRun
import proofs.«139842_j66752381714632_1_alg».proof.Proof.KernelHost
import proofs.«139842_j66752381714632_1_alg».proof.Proof.RefValue
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's formula of the argument arrays in their result array. -/
theorem algebraic : Cert.algebraic_KernelIdeal_ReferenceIdeal := by
  intro m ρ m' ρ' _ hagree
  refine ⟨fun c => Cert.Spec.resid (m ((c.tc : Thread Cert.KernelIdeal.nD Cert.KernelIdeal.τ).loc Cert.KernelIdeal.main_arg0))
      (Cert.ReferenceIdeal.Hand.aggOf
        (Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result m ρ c), (h c).2⟩)
      (Cert.KernelIdeal.Hand.run_arrays m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Hand.result_ref, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
